-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S16384x2048 .f32) (main_arg1 : FVec F S2048x2048 .f32) (main_arg2 : FVec F S2048x2048 .f32) (main_arg3 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S16384x2048 : Shape := ⟨2, ![16384, 2048]⟩
abbrev S2048x2048 : Shape := ⟨2, ![2048, 2048]⟩
abbrev S2048 : Shape := ⟨1, ![2048]⟩
abbrev S512x2048 : Shape := ⟨2, ![512, 2048]⟩
abbrev S2048x512 : Shape := ⟨2, ![2048, 512]⟩
abbrev S1x2048 : Shape := ⟨2, ![1, 2048]⟩

abbrev nBuf : Space → Nat
  | .hbm => 7
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  transposes_S512x2048_p1_0_S2048x512 : S512x2048.Transposes [1, 0] S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  shapeCasts_S2048_S1x2048 : S2048.ShapeCasts S1x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x2048.size a
  hwx0_2 : ∀ i : grid0.Coords, EltTy.bits .bf16 = 32 ∨ (Rect.block (s := S2048x2048) S2048x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S16384x2048.size a
  hwx1_3 : ∀ i : grid1.Coords, EltTy.bits .f32 = 32 ∨ (Rect.block (s := S16384x2048) S512x2048.size (cc1_transform_3 i) (hinb1_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S16384x2048, .f32⟩
  | .hbm, ⟨6, _⟩ => ⟨S1x2048, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x2048_S16384x2048_1_1_0_0_n_n_wf : DotDims.WF S16384x2048 S2048x2048 S16384x2048 [1] [1] [0] [0] [] []

variable [Facts₀]

def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf

class Facts : Prop extends Facts₀ where

variable [Facts]
-- ==== Proof.NamedRun.lean ====
/-
  The idealized kernel's run with its result array named.

  The program is two pipelined regions with one host reshape between them. The frame run that comes with the
  program says that every weakly fair execution terminates, without a fault, with the argument arrays unchanged;
  the same run also determines the result array: it is what the second region's write-backs leave, namely
  `(dat1 (V2 m ρ) c).arrAt 3 cfg1.N`, where `V2 m ρ` are the buffer contents on entry to the second region
  (the launch memory after the first region's write-backs and the reshape). This module restates the run with
  that one more conjunct in its post; what the array IS, index by index, is read in the modules that follow.
-/
import proofs.«143465_j23029614641364_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last boundary's contents at the result buffer are what the second region's write-backs leave of its
    output window (window 3, whose array is the result buffer). -/
theorem last_result (c : Dev nD) :
    W3 m ρ c (Proc.devRef .tc main_v2) = (dat1 (V2 m ρ) c).arrAt 3 cfg1.N :=
  W3_arr m ρ c 3

set_option backward.isDefEq.respectTransparency.types false in
/-- Every weakly fair execution of @main terminates, nothing faulting, with the result buffer at the second
    region's folded write-backs and the four argument arrays as launched. -/
theorem run : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (last_result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.NamedRun

end
-- ==== Proof.Spec.lean ====
/-
  The function both programs compute, over the extended reals.

  A linear layer whose weight matrix is masked elementwise: for a row `n` of `x` and an output feature `o`,

      y (n, o) = (∑ k, x (n, k) * (mask (o, k) * weight (o, k))) + bias o.

  The kernel gets there in two steps. First it forms the masked weight and stores it TRANSPOSED,
  `wT (k, o) = mask (o, k) * weight (o, k)` (`maskedT`); then it multiplies `x` by that matrix and adds the
  bias, which by then is a one-row matrix (`affine`). Composing the two is `masked_linear`; no law of
  arithmetic is needed for that beyond unfolding, so nothing here asks the entries to be finite.
-/
import Idealize.ShloMosaic.PureOps.Ideal
import Idealize.ShloMosaic.Lib.ValueIdx

noncomputable section

namespace Cert.MaskedLinear

open Idealize.ShloMosaic Idealize.ShloMosaic.ValueIdx

/-- Index types of the arrays involved, by their literal extents. -/
abbrev IdxX : Type := (⟨2, ![16384, 2048]⟩ : Shape).Idx
abbrev IdxW : Type := (⟨2, ![2048, 2048]⟩ : Shape).Idx
abbrev IdxB : Type := (⟨1, ![2048]⟩ : Shape).Idx
abbrev IdxB2 : Type := (⟨2, ![1, 2048]⟩ : Shape).Idx

/-- The masked weight, transposed: entry `(k, o)` is `mask (o, k) * weight (o, k)`. -/
def maskedT (mask weight : IdxW → EReal) : IdxW → EReal :=
  fun j => mask (ix2 (j 1) (j 0)) * weight (ix2 (j 1) (j 0))

/-- A matrix product with a one-row bias added to every row:
    entry `(n, o)` is `(∑ k, x (n, k) * w (k, o)) + b (0, o)`. -/
def affine (x : IdxX → EReal) (w : IdxW → EReal) (b : IdxB2 → EReal) : IdxX → EReal :=
  fun i => (∑ k : Fin 2048, x (ix2 (i 0) k) * w (ix2 k (i 1))) + b (ix2 (0 : Fin 1) (i 1))

/-- The masked linear layer: entry `(n, o)` is `(∑ k, x (n, k) * (mask (o, k) * weight (o, k))) + bias o`. -/
def maskedLinear (x : IdxX → EReal) (mask weight : IdxW → EReal) (bias : IdxB → EReal) : IdxX → EReal :=
  fun i => (∑ k : Fin 2048, x (ix2 (i 0) k) * (mask (ix2 (i 1) k) * weight (ix2 (i 1) k))) + bias (ix1 (i 1))

/-- The two steps composed are the layer: the product against the transposed masked weight, with the bias read
    through its one-row form `b2 (0, o) = bias o`. -/
theorem affine_maskedT (x : IdxX → EReal) (mask weight : IdxW → EReal) (bias : IdxB → EReal) (b2 : IdxB2 → EReal)
    (hb : ∀ o : Fin 2048, b2 (ix2 (0 : Fin 1) o) = bias (ix1 o)) :
    affine x (maskedT mask weight) b2 = maskedLinear x mask weight bias := by
  funext i
  exact congrArg
    ((∑ k : Fin 2048, x (ix2 (i 0) k) * (mask (ix2 (i 1) k) * weight (ix2 (i 1) k))) + ·) (hb (i 1))

end Cert.MaskedLinear

end
-- ==== Proof.MaskedWeight.lean ====
/-
  The first region: the masked weight, transposed.

  The region walks the rows of `mask` and `weight` in four slabs of 512 rows. At slab `t` it multiplies the two
  slabs entry by entry and writes the product, transposed, as columns `512 t … 512 t + 511` of the result:
  block `(0, t)` of a 2048 × 2048 array cut into 2048 × 512 blocks. So every block the region writes is the
  restriction of ONE function of the two arrays, `maskedT`: entry `(k, o)` is `mask (o, k) * weight (o, k)`; and
  the four blocks tile the result. (The change of format to sixteen bits is the identity on extended reals.)
-/
import proofs.«143465_j23029614641364_2_alg».proof.Proof.Gen.KernelIdeal.Frame
import proofs.«143465_j23029614641364_2_alg».proof.Proof.Spec
import Idealize.ShloMosaic.Lib.Pipeline.Value
import Idealize.ShloMosaic.Lib.ValueLayout

set_option maxRecDepth 16384

noncomputable section

namespace Cert.KernelIdeal.MaskedWeight

open Cert.KernelIdeal Cert.KernelIdeal.Gen Idealize.ShloMosaic Idealize.ShloMosaic.TcCoe Idealize.SL.Sem
open Idealize.ShloMosaic.ValueIdx Cert.MaskedLinear
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- What the body stores, at column `p` of row `q`: the product of the two loaded slabs at row `p`, column `q`. -/
theorem tile_apply (x0 x1 : Vec Ideal S512x2048 .f32) (q : Fin 2048) (p : Fin 512) :
    k0_pay1 (F := Ideal) x0 x1 (ix2 q p) = x0 (ix2 p q) * x1 (ix2 p q) := by
  unfold k0_pay1
  exact transpose_ix2_apply _ transposes_S512x2048_p1_0_S2048x512 q p

/-- The three index maps over the four slabs: the inputs' slab is the output's column block, and every other
    block index is zero. -/
theorem slab_index : ∀ t : Fin cfg0.N, win0_0.index t (0 : Fin 2) = win0_2.index t (1 : Fin 2)
    ∧ win0_0.index t (1 : Fin 2) = 0
    ∧ win0_1.index t (0 : Fin 2) = win0_2.index t (1 : Fin 2)
    ∧ win0_1.index t (1 : Fin 2) = 0
    ∧ win0_2.index t (0 : Fin 2) = 0
    ∧ win0_2.index t (1 : Fin 2) = t.val :=
  (by decide +kernel : ∀ t : Fin grid0.N, _)

/-- One slab, over variables: if the two loaded slabs are rows `512 s … 512 s + 511` of `A` and of `B`, then what
    the body stores at `j` is `maskedT A B` at the index with the same row as `j` and column `512 s` further. -/
theorem tile_eq (A B : IdxW → EReal) (x0 x1 : Vec Ideal S512x2048 .f32) (s : Nat)
    (h0 : ∀ (p : Fin 512) (q : Fin 2048) (o : Fin 2048), o.val = s * 512 + p.val → x0 (ix2 p q) = A (ix2 o q))
    (h1 : ∀ (p : Fin 512) (q : Fin 2048) (o : Fin 2048), o.val = s * 512 + p.val → x1 (ix2 p q) = B (ix2 o q))
    (j : S2048x512.Idx) (i : IdxW) (hi0 : (i 0).val = (j 0).val) (hi1 : (i 1).val = s * 512 + (j 1).val) :
    k0_pay1 (F := Ideal) x0 x1 j = maskedT A B i := by
  obtain ⟨q, p, rfl⟩ : ∃ (q : Fin 2048) (p : Fin 512), j = ix2 q p := ⟨j 0, j 1, eq_ix2 j⟩
  obtain ⟨k, o, rfl⟩ : ∃ (k : Fin 2048) (o : Fin 2048), i = ix2 k o := ⟨i 0, i 1, eq_ix2 i⟩
  obtain rfl : k = q := Fin.ext hi0
  rw [tile_apply]
  show _ = A (ix2 o k) * B (ix2 o k)
  rw [h0 p k o hi1, h1 p k o hi1]

/-- WHAT SLAB `t` WRITES BACK is block `t` of `maskedT` of the two arrays as the region finds them. -/
theorem flushed_eq (c : Dev nD) (t : Fin cfg0.N) :
    (dat0 V c).flushed 2 t
      = ((cfg0.win 2).blk t).view.read (Elt Ideal) (maskedT (V c main_arg1) (V c main_arg2)) := by
  show (cfg0.win 2).cut (grid0.coords t) ((dat0 V c).after 2 t) = _
  rw [after0_2]
  unfold out0_2
  rw [View.canon_unit_zero zeros2]
  simp only [View.ld_unit_zero (S := S512x2048) zeros2]
  obtain ⟨e0, e1, e2, e3, e4, e5⟩ := slab_index t
  funext j
  show k0_pay1 (F := Ideal) (iblk0 V c 0 t) (iblk0 V c 1 t) j
    = maskedT (V c main_arg1) (V c main_arg2) (((cfg0.win 2).blk t).view.emb j)
  refine tile_eq (V c main_arg1) (V c main_arg2) (iblk0 V c 0 t) (iblk0 V c 1 t) (win0_2.index t (1 : Fin 2))
    ?_ ?_ j (((cfg0.win 2).blk t).view.emb j) ?_ ?_
  · intro p q o ho
    show V c main_arg1 (((cfg0.win 0).blk t).view.emb (ix2 p q)) = V c main_arg1 (ix2 o q)
    refine congrArg (V c main_arg1) (funext fun a => Fin.ext ?_)
    match a with
    | ⟨0, _⟩ => show win0_0.index t (0 : Fin 2) * 512 + 1 * p.val = o.val; omega
    | ⟨1, _⟩ => show win0_0.index t (1 : Fin 2) * 2048 + 1 * q.val = q.val; omega
  · intro p q o ho
    show V c main_arg2 (((cfg0.win 1).blk t).view.emb (ix2 p q)) = V c main_arg2 (ix2 o q)
    refine congrArg (V c main_arg2) (funext fun a => Fin.ext ?_)
    match a with
    | ⟨0, _⟩ => show win0_1.index t (0 : Fin 2) * 512 + 1 * p.val = o.val; omega
    | ⟨1, _⟩ => show win0_1.index t (1 : Fin 2) * 2048 + 1 * q.val = q.val; omega
  · show win0_2.index t (0 : Fin 2) * 2048 + 1 * (j 0).val = (j 0).val; omega
  · show win0_2.index t (1 : Fin 2) * 512 + 1 * (j 1).val = win0_2.index t (1 : Fin 2) * 512 + (j 1).val; omega

/-- An index of the result is in slab `t`'s block iff each coordinate is in the block's range on its axis. -/
theorem mem_blk (t : Fin cfg0.N) (i : S2048x2048.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v0).slice (win0_2.rect t)).set ↔ _
  rw [View.set_slice_whole, Rect.mem_set_unit]
  exact Iff.rfl

/-- The four column blocks tile the result: column `o` lies in the block of slab `o / 512`. -/
theorem cover (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  have hN : (i 1).val / 512 < cfg0.N := by show (i 1).val / 512 < grid0.N; rw [N_0]; omega
  refine ⟨⟨(i 1).val / 512, hN⟩, flush0_2 _, ?_⟩
  obtain ⟨-, -, -, -, e4, e5⟩ := slab_index ⟨(i 1).val / 512, hN⟩
  rw [mem_blk]
  intro a
  match a with
  | ⟨0, _⟩ =>
    show win0_2.index ⟨(i 1).val / 512, hN⟩ (0 : Fin 2) * 2048 ≤ (i 0).val
      ∧ (i 0).val < win0_2.index ⟨(i 1).val / 512, hN⟩ (0 : Fin 2) * 2048 + 2048
    omega
  | ⟨1, _⟩ =>
    show win0_2.index ⟨(i 1).val / 512, hN⟩ (1 : Fin 2) * 512 ≤ (i 1).val
      ∧ (i 1).val < win0_2.index ⟨(i 1).val / 512, hN⟩ (1 : Fin 2) * 512 + 512
    have e5' : win0_2.index ⟨(i 1).val / 512, hN⟩ (1 : Fin 2) = (i 1).val / 512 := e5
    omega

/-- THE RESULT OF THE FIRST REGION: whatever the buffers hold on entry, the region leaves in its output array the
    transposed masked weight of its two input arrays. -/
theorem final (c : Dev nD) :
    (dat0 V c).arrAt 2 cfg0.N = maskedT (V c main_arg1) (V c main_arg2) :=
  (dat0 V c).arrAt_eq_of_cover 2 (maskedT (V c main_arg1) (V c main_arg2)) (fun t _ => flushed_eq V c t) cover

end Cert.KernelIdeal.MaskedWeight

end
-- ==== Proof.Affine.lean ====
/-
  The second region: the product with a resident matrix, plus a one-row bias.

  The region walks the rows of `x` in thirty-two slabs of 512 rows. At every slab it holds the WHOLE 2048 × 2048
  matrix `w` and the whole one-row bias `b`, multiplies the slab by the matrix into a zero accumulator — at an
  entry, the sum over the contracted index of the products, with no rounding — and adds the bias row to every row.
  Slab `t` writes rows `512 t … 512 t + 511` of the result, so each block is the restriction of ONE function of the
  three arrays, `affine`: entry `(n, o)` is `(∑ k, x (n, k) * w (k, o)) + b (0, o)`; and the thirty-two blocks tile
  the result. (The change of format of `x` to sixteen bits is the identity on extended reals.)
-/
import proofs.«143465_j23029614641364_2_alg».proof.Proof.Gen.KernelIdeal.Frame
import proofs.«143465_j23029614641364_2_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Affine

open Cert.KernelIdeal Cert.KernelIdeal.Gen Idealize.ShloMosaic Idealize.ShloMosaic.TcCoe Idealize.SL.Sem
open Idealize.ShloMosaic.ValueIdx Cert.MaskedLinear
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The product's left operand index at result index `(p, q)` and contracted index `k` is `(p, k)`, -/
theorem lhs_idx (p : Fin 512) (q k : Fin 2048) :
    dot_S512x2048_S2048x2048_S512x2048_1_0_0_1_n_n.lhsIdx (ix2 p q)
      ((contrEquiv1 dot_S512x2048_S2048x2048_S512x2048_1_0_0_1_n_n 2048 rfl rfl).symm k) = ix2 p k := by
  have hk := contrEquiv1_symm_val dot_S512x2048_S2048x2048_S512x2048_1_0_0_1_n_n 2048 rfl rfl k
  refine funext fun a => Fin.ext ?_
  match a with
  | ⟨0, _⟩ =>
    show (dot_S512x2048_S2048x2048_S512x2048_1_0_0_1_n_n.lhsIdx (ix2 p q) _ 0).val = p.val
    unfold DotDims.lhsIdx
    rw [dif_neg (show ¬(0 : Fin S512x2048.rank) ∈ dot_S512x2048_S2048x2048_S512x2048_1_0_0_1_n_n.lhsBatch by decide),
      dif_pos (show (0 : Fin S512x2048.rank) ∈ dot_S512x2048_S2048x2048_S512x2048_1_0_0_1_n_n.lhsNonContracting by decide)]
    rfl
  | ⟨1, _⟩ =>
    exact (dot_S512x2048_S2048x2048_S512x2048_1_0_0_1_n_n.lhsIdx_val_of_single rfl (ix2 p q) _).trans hk

/-- and the right operand index is `(k, q)`. -/
theorem rhs_idx (p : Fin 512) (q k : Fin 2048) :
    dot_S512x2048_S2048x2048_S512x2048_1_0_0_1_n_n.rhsIdx (ix2 p q)
      ((contrEquiv1 dot_S512x2048_S2048x2048_S512x2048_1_0_0_1_n_n 2048 rfl rfl).symm k) = ix2 k q := by
  have hk := contrEquiv1_symm_val dot_S512x2048_S2048x2048_S512x2048_1_0_0_1_n_n 2048 rfl rfl k
  refine funext fun a => Fin.ext ?_
  match a with
  | ⟨0, _⟩ =>
    exact (dot_S512x2048_S2048x2048_S512x2048_1_0_0_1_n_n.rhsIdx_val_of_single rfl (ix2 p q) _).trans hk
  | ⟨1, _⟩ =>
    show (dot_S512x2048_S2048x2048_S512x2048_1_0_0_1_n_n.rhsIdx (ix2 p q) _ 1).val = q.val
    unfold DotDims.rhsIdx
    rw [dif_neg (show ¬(1 : Fin S2048x2048.rank) ∈ dot_S512x2048_S2048x2048_S512x2048_1_0_0_1_n_n.rhsBatch by decide),
      dif_pos (show (1 : Fin S2048x2048.rank) ∈ dot_S512x2048_S2048x2048_S512x2048_1_0_0_1_n_n.rhsNonContracting by decide)]
    rfl

/-- The slab's product into the zero accumulator, at `(p, q)`: the sum over `k` of `l (p, k) * r (k, q)`. -/
theorem product_apply (l : FVec Ideal S512x2048 .bf16) (r : FVec Ideal S2048x2048 .bf16) (p : Fin 512) (q : Fin 2048) :
    matmul dot_S512x2048_S2048x2048_S512x2048_1_0_0_1_n_n none l r (constant (F := Ideal) S512x2048 .f32 0x00000000#32) (ix2 p q)
      = ∑ k : Fin 2048, l (ix2 p k) * r (ix2 k q) := by
  refine (Ideal.matmul_constant_zero_apply dot_S512x2048_S2048x2048_S512x2048_1_0_0_1_n_n none l r (ix2 p q)).trans ?_
  rw [← Equiv.sum_comp (contrEquiv1 dot_S512x2048_S2048x2048_S512x2048_1_0_0_1_n_n 2048 rfl rfl).symm]
  refine Finset.sum_congr rfl fun k _ => ?_
  rw [lhs_idx, rhs_idx]

/-- What the body stores, at `(p, q)`: the row of the slab against the column of the matrix, plus the bias at the column. -/
theorem rows_apply (x0 : Vec Ideal S512x2048 .f32) (x1 : Vec Ideal S2048x2048 .bf16) (x2 : Vec Ideal S1x2048 .f32)
    (p : Fin 512) (q : Fin 2048) :
    k1_pay1 (F := Ideal) x0 x1 x2 (ix2 p q) = (∑ k : Fin 2048, x0 (ix2 p k) * x1 (ix2 k q)) + x2 (ix2 (0 : Fin 1) q) := by
  unfold k1_pay1
  refine congrArg₂ (· + ·) ?_ ?_
  · refine (product_apply _ _ p q).trans ?_
    rw [shapeCast_self]
    rfl
  · refine (broadcastTo_1b_ab_apply _ broadcasts_S1x2048_S512x2048 p q).trans ?_
    rw [shapeCast_self]

/-- One slab, over variables: if the loaded slab is rows `512 s … 512 s + 511` of `X`, the resident matrix is `Wt` and the
    resident row is `B2`, then what the body stores at `j` is `affine X Wt B2` at the index `512 s` rows further down. -/
theorem rows_eq (X : IdxX → EReal) (Wt : IdxW → EReal) (B2 : IdxB2 → EReal)
    (x0 : Vec Ideal S512x2048 .f32) (x1 : Vec Ideal S2048x2048 .bf16) (x2 : Vec Ideal S1x2048 .f32) (s : Nat)
    (h0 : ∀ (p : Fin 512) (k : Fin 2048) (n : Fin 16384), n.val = s * 512 + p.val → x0 (ix2 p k) = X (ix2 n k))
    (h1 : ∀ (k q : Fin 2048), x1 (ix2 k q) = Wt (ix2 k q))
    (h2 : ∀ q : Fin 2048, x2 (ix2 (0 : Fin 1) q) = B2 (ix2 (0 : Fin 1) q))
    (j : S512x2048.Idx) (i : IdxX) (hi0 : (i 0).val = s * 512 + (j 0).val) (hi1 : (i 1).val = (j 1).val) :
    k1_pay1 (F := Ideal) x0 x1 x2 j = affine X Wt B2 i := by
  obtain ⟨p, q, rfl⟩ : ∃ (p : Fin 512) (q : Fin 2048), j = ix2 p q := ⟨j 0, j 1, eq_ix2 j⟩
  obtain ⟨n, o, rfl⟩ : ∃ (n : Fin 16384) (o : Fin 2048), i = ix2 n o := ⟨i 0, i 1, eq_ix2 i⟩
  obtain rfl : o = q := Fin.ext hi1
  rw [rows_apply]
  show _ = (∑ k : Fin 2048, X (ix2 n k) * Wt (ix2 k o)) + B2 (ix2 (0 : Fin 1) o)
  rw [h2]
  refine congrArg (· + B2 (ix2 (0 : Fin 1) o)) (Finset.sum_congr rfl fun k _ => ?_)
  rw [h0 p k n hi0, h1]

/-- The four index maps over the thirty-two slabs: the slab of `x` is the output's row block, the matrix and the bias
    row never move, and every other block index is zero. -/
theorem slab_index : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT SLAB `t` WRITES BACK is block `t` of `affine` of the three arrays as the region finds them. -/
theorem flushed_eq (c : Dev nD) (t : Fin cfg1.N) :
    (dat1 V c).flushed 3 t
      = ((cfg1.win 3).blk t).view.read (Elt Ideal) (affine (V c main_arg0) (V c main_v0) (V c main_v1)) := by
  show (cfg1.win 3).cut (grid1.coords t) ((dat1 V c).after 3 t) = _
  rw [after1_3]
  unfold out1_3
  rw [View.canon_unit_zero zeros2]
  simp only [View.ld_unit_zero (S := S512x2048) zeros2, View.ld_unit_zero (S := S2048x2048) zeros2,
    View.ld_unit_zero (S := S1x2048) zeros2]
  obtain ⟨e0, e1, e2, e3, e4, e5, e6, e7⟩ := slab_index t
  funext j
  show k1_pay1 (F := Ideal) (iblk1 V c 0 t) (iblk1 V c 1 t) (iblk1 V c 2 t) j
    = affine (V c main_arg0) (V c main_v0) (V c main_v1) (((cfg1.win 3).blk t).view.emb j)
  refine rows_eq (V c main_arg0) (V c main_v0) (V c main_v1) (iblk1 V c 0 t) (iblk1 V c 1 t) (iblk1 V c 2 t)
    (win1_3.index t (0 : Fin 2)) ?_ ?_ ?_ j (((cfg1.win 3).blk t).view.emb j) ?_ ?_
  · intro p k n hn
    show V c main_arg0 (((cfg1.win 0).blk t).view.emb (ix2 p k)) = V c main_arg0 (ix2 n k)
    refine congrArg (V c main_arg0) (funext fun a => Fin.ext ?_)
    match a with
    | ⟨0, _⟩ => show win1_0.index t (0 : Fin 2) * 512 + 1 * p.val = n.val; omega
    | ⟨1, _⟩ => show win1_0.index t (1 : Fin 2) * 2048 + 1 * k.val = k.val; omega
  · intro k q
    show V c main_v0 (((cfg1.win 1).blk t).view.emb (ix2 k q)) = V c main_v0 (ix2 k q)
    refine congrArg (V c main_v0) (funext fun a => Fin.ext ?_)
    match a with
    | ⟨0, _⟩ => show win1_1.index t (0 : Fin 2) * 2048 + 1 * k.val = k.val; omega
    | ⟨1, _⟩ => show win1_1.index t (1 : Fin 2) * 2048 + 1 * q.val = q.val; omega
  · intro q
    show V c main_v1 (((cfg1.win 2).blk t).view.emb (ix2 (0 : Fin 1) q)) = V c main_v1 (ix2 (0 : Fin 1) q)
    refine congrArg (V c main_v1) (funext fun a => Fin.ext ?_)
    match a with
    | ⟨0, _⟩ => show win1_2.index t (0 : Fin 2) * 1 + 1 * (0 : Fin 1).val = (0 : Fin 1).val; omega
    | ⟨1, _⟩ => show win1_2.index t (1 : Fin 2) * 2048 + 1 * q.val = q.val; omega
  · show win1_3.index t (0 : Fin 2) * 512 + 1 * (j 0).val = win1_3.index t (0 : Fin 2) * 512 + (j 0).val; omega
  · show win1_3.index t (1 : Fin 2) * 2048 + 1 * (j 1).val = (j 1).val; omega

/-- An index of the result is in slab `t`'s block iff each coordinate is in the block's range on its axis. -/
theorem mem_blk (t : Fin cfg1.N) (i : S16384x2048.Idx) :
    i ∈ ((cfg1.win 3).blk t).view.set ↔ ∀ a : Fin 2, win1_3.index t a * S512x2048.size a ≤ (i a).val
      ∧ (i a).val < win1_3.index t a * S512x2048.size a + S512x2048.size a := by
  show i ∈ ((View.whole main_v2).slice (win1_3.rect t)).set ↔ _
  rw [View.set_slice_whole, Rect.mem_set_unit]
  exact Iff.rfl

/-- The thirty-two row blocks tile the result: row `n` lies in the block of slab `n / 512`. -/
theorem cover (i : S16384x2048.Idx) :
    ∃ t : Fin cfg1.N, (cfg1.win 3).flush t = true ∧ i ∈ ((cfg1.win 3).blk t).view.set := by
  have hi0 : (i 0).val < 16384 := (i 0).isLt
  have hi1 : (i 1).val < 2048 := (i 1).isLt
  have hN : (i 0).val / 512 < cfg1.N := by show (i 0).val / 512 < grid1.N; rw [N_1]; omega
  refine ⟨⟨(i 0).val / 512, hN⟩, flush1_3 _, ?_⟩
  obtain ⟨-, -, -, -, -, -, e6, e7⟩ := slab_index ⟨(i 0).val / 512, hN⟩
  rw [mem_blk]
  intro a
  match a with
  | ⟨0, _⟩ =>
    show win1_3.index ⟨(i 0).val / 512, hN⟩ (0 : Fin 2) * 512 ≤ (i 0).val
      ∧ (i 0).val < win1_3.index ⟨(i 0).val / 512, hN⟩ (0 : Fin 2) * 512 + 512
    have e6' : win1_3.index ⟨(i 0).val / 512, hN⟩ (0 : Fin 2) = (i 0).val / 512 := e6
    omega
  | ⟨1, _⟩ =>
    show win1_3.index ⟨(i 0).val / 512, hN⟩ (1 : Fin 2) * 2048 ≤ (i 1).val
      ∧ (i 1).val < win1_3.index ⟨(i 0).val / 512, hN⟩ (1 : Fin 2) * 2048 + 2048
    omega

/-- THE RESULT OF THE SECOND REGION: whatever the buffers hold on entry, the region leaves in its output array the
    product of its first input array with its second, plus its third on every row. -/
theorem final (c : Dev nD) :
    (dat1 V c).arrAt 3 cfg1.N = affine (V c main_arg0) (V c main_v0) (V c main_v1) :=
  (dat1 V c).arrAt_eq_of_cover 3 (affine (V c main_arg0) (V c main_v0) (V c main_v1)) (fun t _ => flushed_eq V c t) cover

end Cert.KernelIdeal.Affine

end
-- ==== Proof.Between.lean ====
/-
  What the second region finds on entry.

  Between the two regions the program reshapes the bias vector to one row; nothing else is written. So on entry
  to the second region: the array `x` is as launched (nothing has touched it); the matrix operand is what the
  first region's write-backs left; and the one-row operand is the bias read through the reshape, `b2 (0, o) = bias o`.
  The first region itself found `mask` and `weight` as launched.
-/
import proofs.«143465_j23029614641364_2_alg».proof.Proof.Gen.KernelIdeal.Frame
import Idealize.ShloMosaic.Lib.Pipeline.Value
import Idealize.ShloMosaic.Lib.ValueLayout
import Idealize.ShloMosaic.Lib.StableHlo.Run

set_option maxRecDepth 16384

noncomputable section

namespace Cert.KernelIdeal.Between

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ) (ρ : Dev nD → PrngReg)

/-- The first region finds `mask` as launched, -/
theorem first_mask (c : Dev nD) : V0 m ρ c main_arg1 = m ((c : Thread nD τ).loc main_arg1) := rfl
/-- and `weight` as launched. -/
theorem first_weight (c : Dev nD) : V0 m ρ c main_arg2 = m ((c : Thread nD τ).loc main_arg2) := rfl

/-- The second region finds `x` as launched: neither the first region nor the reshape writes it. -/
theorem second_x (c : Dev nD) : V2 m ρ c main_arg0 = m ((c : Thread nD τ).loc main_arg0) := by
  show StableHlo.after hostOps1 (W1 m ρ c) (Proc.devRef .tc main_arg0) = _
  after_results
  exact (W1_of_ne m ρ c main_arg0 (by decide)).trans rfl

/-- Its matrix operand is what the first region's write-backs left in the first region's output array. -/
theorem second_matrix (c : Dev nD) : V2 m ρ c main_v0 = (dat0 (V0 m ρ) c).arrAt 2 cfg0.N := by
  show StableHlo.after hostOps1 (W1 m ρ c) (Proc.devRef .tc main_v0) = _
  after_results
  exact W1_arr m ρ c 2

/-- Its one-row operand is the bias through the reshape: at `(0, o)` it holds `bias o`. -/
theorem second_row (c : Dev nD) (q : Fin 2048) :
    V2 m ρ c main_v1 (ix2 (0 : Fin 1) q) = m ((c : Thread nD τ).loc main_arg3) (ix1 q) := by
  have e : V2 m ρ c main_v1 = shapeCast S1x2048 (W1 m ρ c (Proc.devRef .tc main_arg3)) shapeCasts_S2048_S1x2048 := by
    show StableHlo.after hostOps1 (W1 m ρ c) (Proc.devRef .tc main_v1) = _
    after_results
    rfl
  have e3 : W1 m ρ c (Proc.devRef .tc main_arg3) = m ((c : Thread nD τ).loc main_arg3) :=
    (W1_of_ne m ρ c main_arg3 (by decide)).trans rfl
  rw [e]
  refine (shapeCast_a_1a_apply _ shapeCasts_S2048_S1x2048 (0 : Fin 1) q).trans ?_
  exact congrFun e3 (ix1 q)

end Cert.KernelIdeal.Between

end
-- ==== Proof.KernelValue.lean ====
/-
  The idealized kernel's result is the masked linear layer of its arguments.

  The second region leaves `affine` of what it finds; it finds `x` as launched, the matrix the first region left,
  which is `maskedT` of `mask` and `weight` as launched, and the bias as one row. Composed (`affine_maskedT`) that is
  `maskedLinear x mask weight bias`, at every index, with no condition on the entries.
-/
import proofs.«143465_j23029614641364_2_alg».proof.Proof.NamedRun
import proofs.«143465_j23029614641364_2_alg».proof.Proof.MaskedWeight
import proofs.«143465_j23029614641364_2_alg».proof.Proof.Affine
import proofs.«143465_j23029614641364_2_alg».proof.Proof.Between

noncomputable section

namespace Cert.KernelIdeal.KernelValue

open Cert.KernelIdeal Cert.KernelIdeal.Gen Idealize.ShloMosaic Idealize.ShloMosaic.TcCoe Idealize.SL.Sem
open Cert.MaskedLinear

variable (m : (ℓ : Loc nD τ sig) → Buf (Elt Ideal) ℓ) (ρ : Dev nD → PrngReg)

/-- What the second region's write-backs leave, as a function of the launch memory. -/
theorem result_eq (c : Dev nD) :
    (dat1 (V2 m ρ) c).arrAt 3 cfg1.N
      = maskedLinear (m ((c.tc : Thread nD τ).loc main_arg0)) (m ((c.tc : Thread nD τ).loc main_arg1))
          (m ((c.tc : Thread nD τ).loc main_arg2)) (m ((c.tc : Thread nD τ).loc main_arg3)) :=
  (Affine.final (V2 m ρ) c).trans <|
    (congrArg₂ (fun X W => affine X W (V2 m ρ c main_v1)) (Between.second_x m ρ c)
      ((Between.second_matrix m ρ c).trans (MaskedWeight.final (V0 m ρ) c))).trans <|
    affine_maskedT _ _ _ _ _ (fun o => Between.second_row m ρ c o)

/-- Every weakly fair execution of the idealized kernel terminates, nothing faulting, with its result array at the
    masked linear layer of the argument arrays and the argument arrays as launched. -/
theorem run : θ_run defs (onTc (τ := τ) (main (F := Ideal))) ⟨m, fun _ => 0, ρ⟩ (fun r => ∀ c : Dev nD,
      r.2.mem ((c.tc : Thread nD τ).loc main_v2)
        = maskedLinear (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (NamedRun.run m ρ)

end Cert.KernelIdeal.KernelValue

end
-- ==== Proof.RefValue.lean ====
/-
  The reference, read at an index, is the masked linear layer.

  The reference multiplies `mask` and `weight` elementwise, contracts `x` with the product along the SECOND axis
  of both (so entry `(n, o)` sums `x (n, k) * (mask (o, k) * weight (o, k))` over `k`), and adds the bias
  broadcast first to one row and then to every row. Read at an index, one operation at a time, that is
  `maskedLinear` term for term.
-/
import proofs.«143465_j23029614641364_2_alg».proof.Proof.Gen.ReferenceIdeal.Read
import proofs.«143465_j23029614641364_2_alg».proof.Proof.Spec

noncomputable section

namespace Cert.ReferenceIdeal.RefValue

open Cert.ReferenceIdeal Cert.ReferenceIdeal.Read Idealize.ShloMosaic Idealize.ShloMosaic.ValueIdx Cert.MaskedLinear

/-- The reference's result, as a function of its four arguments, is `maskedLinear` of them. -/
theorem reference_eq (x0 : S16384x2048.Idx → EReal) (x1 x2 : S2048x2048.Idx → EReal) (x3 : S2048.Idx → EReal) :
    val_main_v4 (F := Ideal) x0 x1 x2 x3 = maskedLinear x0 x1 x2 x3 := by
  funext i
  -- the contraction reads row `n` of `x` and row `o` of the masked weight, both at column `k`
  have el : ∀ k : Fin 2048, lidx_main_v1 i k = ix2 (i 0) k := fun k => funext fun a => Fin.ext (by
    match a with | ⟨0, _⟩ => rfl | ⟨1, _⟩ => rfl)
  have er : ∀ k : Fin 2048, ridx_main_v1 i k = ix2 (i 1) k := fun k => funext fun a => Fin.ext (by
    match a with | ⟨0, _⟩ => rfl | ⟨1, _⟩ => rfl)
  -- the two broadcasts read the bias at the column
  have eb : idx_main_v2 (idx_main_v3 i) = ix1 (i 1) := funext fun a => Fin.ext (by
    match a with | ⟨0, _⟩ => rfl)
  rw [val_main_v4_apply, val_main_v1_apply, val_main_v3_apply, val_main_v2_apply]
  simp only [val_main_v0_apply, el, er, eb, Ideal.addf_def, Ideal.mulf_def]
  rfl

end Cert.ReferenceIdeal.RefValue

end
-- ==== Proof.lean ====
/-
  The certificate of a masked linear layer: `y = x · (mask ∘ weight)ᵀ + bias` over f32[16384, 2048], f32[2048, 2048]
  twice and f32[2048].

  The kernel is two pipelined regions. The first multiplies `mask` and `weight` entry by entry and stores the
  product transposed; the second multiplies 512-row slabs of `x` by that whole matrix into a zero accumulator and
  adds the bias row. The reference multiplies `mask` and `weight`, contracts `x` with the product along the second
  axis of both, and adds the broadcast bias. Over the extended reals a change of float format is the identity and a
  matrix product is the plain sum of products, so both sides are, entry by entry,

      y (n, o) = (∑ k, x (n, k) * (mask (o, k) * weight (o, k))) + bias o

  with the sum taken over the same index in the same form: no law of arithmetic joins them, only unfolding, and the
  precondition (finite inputs) is never opened.

  Spec states that function; MaskedWeight and Affine read what each region leaves, block by block, and tile the
  blocks; Between reads the buffers on entry to the second region; NamedRun restates the program's run with the
  result array named; KernelValue composes them; RefValue reads the reference at an index. The three frames are the
  runs with the result forgotten; the kernel's idealization rewrote nothing.
-/
import proofs.«143465_j23029614641364_2_alg».proof.Defs
import proofs.«143465_j23029614641364_2_alg».proof.Proof.Gen.Kernel
import proofs.«143465_j23029614641364_2_alg».proof.Proof.Gen.Kernel.Skeleton
import proofs.«143465_j23029614641364_2_alg».proof.Proof.Gen.Kernel.Launch
import proofs.«143465_j23029614641364_2_alg».proof.Proof.Gen.Kernel.Points
import proofs.«143465_j23029614641364_2_alg».proof.Proof.Gen.Kernel.Frame
import proofs.«143465_j23029614641364_2_alg».proof.Proof.Gen.KernelIdeal
import proofs.«143465_j23029614641364_2_alg».proof.Proof.Gen.KernelIdeal.Skeleton
import proofs.«143465_j23029614641364_2_alg».proof.Proof.Gen.KernelIdeal.Launch
import proofs.«143465_j23029614641364_2_alg».proof.Proof.Gen.KernelIdeal.Points
import proofs.«143465_j23029614641364_2_alg».proof.Proof.Gen.KernelIdeal.Frame
import proofs.«143465_j23029614641364_2_alg».proof.Proof.Gen.ReferenceIdeal
import proofs.«143465_j23029614641364_2_alg».proof.Proof.Gen.Pre_finite_inputs
import proofs.«143465_j23029614641364_2_alg».proof.Proof.Gen.ReferenceIdeal.Run
import proofs.«143465_j23029614641364_2_alg».proof.Proof.Gen.ReferenceIdeal.Read
import proofs.«143465_j23029614641364_2_alg».proof.Proof.KernelValue
import proofs.«143465_j23029614641364_2_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both idealized programs end with the masked linear layer of the
    arguments in their result arrays: the kernel by its two regions composed, the reference read at an index. -/
theorem algebraic : Cert.algebraic_KernelIdeal_ReferenceIdeal := by
  intro m ρ m' ρ' _ hagree
  refine ⟨fun c => Cert.MaskedLinear.maskedLinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
